-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S40000x128 .f32) (main_arg1 : IVec S2x640000 32) (main_arg2 : FVec F S128x128 .f32) (main_arg3 : FVec F S128x128 .f32) (main_arg4 : FVec F S128 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S4000x128 : Shape := ⟨2, ![4000, 128]⟩
abbrev S1x128 : Shape := ⟨2, ![1, 128]⟩

abbrev nBuf : Space → Nat
  | .hbm => 36
  | .vmem => 9
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S40000x128, .f32⟩
  | .hbm, ⟨20, _⟩ => ⟨S640000x1, .i32⟩
  | .hbm, ⟨21, _⟩ => ⟨S40000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S40000, .f32⟩
  | .hbm, ⟨26, _⟩ => ⟨S640000x1, .i32⟩
  | .hbm, ⟨27, _⟩ => ⟨S40000, .f32⟩
  | .hbm, ⟨28, _⟩ => ⟨S_, .f32⟩
  | .hbm, ⟨29, _⟩ => ⟨S_, .f32⟩
  | .hbm, ⟨30, _⟩ => ⟨S40000, .f32⟩
  | .hbm, ⟨31, _⟩ => ⟨S40000, .f32⟩
  | .hbm, ⟨32, _⟩ => ⟨S40000x1, .f32⟩
  | .hbm, ⟨33, _⟩ => ⟨S40000x128, .f32⟩
  | .hbm, ⟨34, _⟩ => ⟨S40000x128, .f32⟩
  | .hbm, ⟨35, _⟩ => ⟨S40000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S4000x128, .f32⟩
  | .local _ .vmem, ⟨8, _⟩ => ⟨S4000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S40000x128.size a
  hwx0_5 : ∀ i : grid0.Coords, EltTy.bits .f32 = 32 ∨ (Rect.block (s := S40000x128) S4000x128.size (cc0_transform_5 i) (hinb0_5 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S128x128 : Shape := ⟨2, ![128, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S40000 : Shape := ⟨1, ![40000]⟩
abbrev S40000x1 : Shape := ⟨2, ![40000, 1]⟩
abbrev S1x128 : Shape := ⟨2, ![1, 128]⟩

abbrev nBuf : Space → Nat
  | .hbm => 43
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .f32⟩
  | .hbm, ⟨19, _⟩ => ⟨S40000x128, .f32⟩
  | .hbm, ⟨20, _⟩ => ⟨S640000x1, .i32⟩
  | .hbm, ⟨21, _⟩ => ⟨S40000x128, .f32⟩
  | .hbm, ⟨22, _⟩ => ⟨S_, .f32⟩
  | .hbm, ⟨23, _⟩ => ⟨S640000, .f32⟩
  | .hbm, ⟨24, _⟩ => ⟨S_, .f32⟩
  | .hbm, ⟨25, _⟩ => ⟨S40000, .f32⟩
  | .hbm, ⟨26, _⟩ => ⟨S640000x1, .i32⟩
  | .hbm, ⟨27, _⟩ => ⟨S40000, .f32⟩
  | .hbm, ⟨28, _⟩ => ⟨S_, .f32⟩
  | .hbm, ⟨29, _⟩ => ⟨S_, .f32⟩
  | .hbm, ⟨30, _⟩ => ⟨S40000, .f32⟩
  | .hbm, ⟨31, _⟩ => ⟨S40000, .f32⟩
  | .hbm, ⟨32, _⟩ => ⟨S40000x1, .f32⟩
  | .hbm, ⟨33, _⟩ => ⟨S40000x128, .f32⟩
  | .hbm, ⟨34, _⟩ => ⟨S40000x128, .f32⟩
  | .hbm, ⟨35, _⟩ => ⟨S128x128, .f32⟩
  | .hbm, ⟨36, _⟩ => ⟨S40000x128, .f32⟩
  | .hbm, ⟨37, _⟩ => ⟨S128x128, .f32⟩
  | .hbm, ⟨38, _⟩ => ⟨S40000x128, .f32⟩
  | .hbm, ⟨39, _⟩ => ⟨S40000x128, .f32⟩
  | .hbm, ⟨40, _⟩ => ⟨S1x128, .f32⟩
  | .hbm, ⟨41, _⟩ => ⟨S40000x128, .f32⟩
  | .hbm, ⟨42, _⟩ => ⟨S40000x128, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  transposes_S128x128_S128x128_1_0 : S128x128.Transposes [1, 0] S128x128
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.DualLinear.lean ====
/-
  The function both programs compute, once the neighbour aggregate is given.

  With node features `x : [40000, 128]`, the aggregate `a : [40000, 128]` (the mean of the neighbours' features), the two
  weight matrices `ws, wn : [128, 128]` stored as [out, in], and the bias `b : [128]`, the entry at node `r` and
  output feature `c` is

      (∑ₖ x[r, k] · ws[c, k]  +  ∑ₖ a[r, k] · wn[c, k])  +  b[c]

  on the extended reals: two inner products of a row of the features with a ROW of a weight matrix (the product with
  the transposed matrix), added, then the bias added. Nothing here needs the entries to be finite: the two programs
  form these sums and additions in this same grouping.
-/
import Idealize.ShloMosaic.PureOps.Ideal
import Idealize.ShloMosaic.Lib.ValueIdx

noncomputable section

namespace Cert.DualLinear

open Idealize.ShloMosaic Idealize.ShloMosaic.ValueIdx

/-- The entry at node `r`, output feature `c`. -/
def entry (x a : (⟨2, ![40000, 128]⟩ : Shape).Idx → EReal) (ws wn : (⟨2, ![128, 128]⟩ : Shape).Idx → EReal)
    (b : (⟨1, ![128]⟩ : Shape).Idx → EReal) (r : Fin 40000) (c : Fin 128) : EReal :=
  (∑ k : Fin 128, x (ix2 r k) * ws (ix2 c k) + ∑ k : Fin 128, a (ix2 r k) * wn (ix2 c k)) + b (ix1 c)

/-- The whole [40000, 128] array: `x · wsᵀ + a · wnᵀ + b`, entry by entry. -/
def out (x a : (⟨2, ![40000, 128]⟩ : Shape).Idx → EReal) (ws wn : (⟨2, ![128, 128]⟩ : Shape).Idx → EReal)
    (b : (⟨1, ![128]⟩ : Shape).Idx → EReal) : (⟨2, ![40000, 128]⟩ : Shape).Idx → EReal :=
  fun i => entry x a ws wn b (i 0) (i 1)

theorem out_ix2 (x a : (⟨2, ![40000, 128]⟩ : Shape).Idx → EReal) (ws wn : (⟨2, ![128, 128]⟩ : Shape).Idx → EReal)
    (b : (⟨1, ![128]⟩ : Shape).Idx → EReal) (r : Fin 40000) (c : Fin 128) :
    out x a ws wn b (ix2 r c) = entry x a ws wn b r c := rfl

end Cert.DualLinear

end
-- ==== Proof.RefValue.lean ====
/-
  The reference, read entry by entry: its result is `x · W_selfᵀ + agg · W_neighᵀ + bias` with `agg` the array its own
  gather, scatter-add and division produce. The two `dot_general`s against a transposed weight matrix are, at (r, c),
  the sums over k of a row-r entry times the weight's entry (c, k); the bias, broadcast along the rows, is its entry c.
-/
import proofs.«105086_j1554778161245_1_alg».proof.Proof.Gen.ReferenceIdeal.Read
import proofs.«105086_j1554778161245_1_alg».proof.Proof.DualLinear

noncomputable section

namespace Cert.ReferenceIdeal.RefValue

open Cert.ReferenceIdeal Cert.ReferenceIdeal.Read Idealize.ShloMosaic Idealize.ShloMosaic.ValueIdx

theorem lidx23 (r : Fin 40000) (c k : Fin 128) : lidx_main_v23 (ix2 r c) k = ix2 r k :=
  funext fun a => Fin.ext (by match a with | ⟨0, _⟩ => rfl | ⟨1, _⟩ => rfl)
theorem ridx23 (r : Fin 40000) (c k : Fin 128) : idx_main_v22 (ridx_main_v23 (ix2 r c) k) = ix2 c k :=
  funext fun a => Fin.ext (by match a with | ⟨0, _⟩ => rfl | ⟨1, _⟩ => rfl)
theorem lidx25 (r : Fin 40000) (c k : Fin 128) : lidx_main_v25 (ix2 r c) k = ix2 r k :=
  funext fun a => Fin.ext (by match a with | ⟨0, _⟩ => rfl | ⟨1, _⟩ => rfl)
theorem ridx25 (r : Fin 40000) (c k : Fin 128) : idx_main_v24 (ridx_main_v25 (ix2 r c) k) = ix2 c k :=
  funext fun a => Fin.ext (by match a with | ⟨0, _⟩ => rfl | ⟨1, _⟩ => rfl)
theorem idx28 (r : Fin 40000) (c : Fin 128) : idx_main_v27 (idx_main_v28 (ix2 r c)) = ix1 c :=
  funext fun a => Fin.ext (by match a with | ⟨0, _⟩ => rfl)

/-- The reference's result is `DualLinear.out` of the features, ITS aggregate, the weights and the bias. -/
theorem result_eq (x0 : (⟨S40000x128, .f32⟩ : BufTy).Contents (Elt Ideal)) (x1 : (⟨S2x640000, .i32⟩ : BufTy).Contents (Elt Ideal))
    (x2 x3 : (⟨S128x128, .f32⟩ : BufTy).Contents (Elt Ideal)) (x4 : (⟨S128, .f32⟩ : BufTy).Contents (Elt Ideal)) :
    val_main_v29 (F := Ideal) x0 x1 x2 x3 x4 = Cert.DualLinear.out x0 (val_main_v21 (F := Ideal) x0 x1) x2 x3 x4 := by
  funext i
  obtain ⟨r, c, rfl⟩ : ∃ (r : Fin 40000) (c : Fin 128), i = ix2 r c := ⟨i 0, i 1, eq_ix2 i⟩
  rw [val_main_v29_apply, val_main_v26_apply, val_main_v23_apply, val_main_v25_apply, val_main_v28_apply, val_main_v27_apply,
    Cert.DualLinear.out_ix2]
  simp only [val_main_v22_apply, val_main_v24_apply, lidx23, ridx23, lidx25, ridx25, idx28, Ideal.addf_def]
  rfl

end Cert.ReferenceIdeal.RefValue

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.Payload.lean ====
/-
  What the kernel's body stores, read entry by entry on the extended reals.

  At a grid point the body holds a [4000, 128] block of node features `v0`, the same rows of the aggregate `v2`, both
  [128, 128] weight matrices `v5`, `v7` and the bias `v14`. Rounding to bf16 changes nothing on the extended reals,
  and a matrix-unit product into a zero accumulator is the plain sum of products; the right operand being the
  TRANSPOSED weight, its entry (k, q) is the weight's (q, k). So the stored entry (p, q) is

      (∑ₖ v0[p, k] · v5[q, k]  +  ∑ₖ v2[p, k] · v7[q, k])  +  v14[q].
-/
import proofs.«105086_j1554778161245_1_alg».proof.Proof.Gen.KernelIdeal.Skeleton
import proofs.«105086_j1554778161245_1_alg».proof.Proof.LibPlainDot
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-- A [4000, 128] block times the transpose of a [128, 128] matrix, into the zero accumulator: entry (p, q) is the inner
    product of the block's row p with the matrix's ROW q. -/
theorem matmul_transposed_apply (l : FVec Ideal S4000x128 .bf16) (w : FVec Ideal S128x128 .bf16) (p : Fin 4000) (q : Fin 128) :
    matmul (F := Ideal) dot_S4000x128_S128x128_S4000x128_1_0_0_1_n_n none l
        (transpose S128x128 [1, 0] w transposes_S128x128_p1_0_S128x128) (constant S4000x128 .f32 0x00000000#32) (ix2 p q)
      = ∑ k : Fin 128, l (ix2 p k) * w (ix2 q k) := by
  refine (Ideal.matmul_constant_zero_apply dot_S4000x128_S128x128_S4000x128_1_0_0_1_n_n none l _ (ix2 p q)).trans ?_
  refine (PlainDot.plain_sum dot_S4000x128_S128x128_S4000x128_1_0_0_1_n_n rfl rfl rfl rfl rfl rfl rfl rfl
    (fun a b => l a * transpose S128x128 [1, 0] w transposes_S128x128_p1_0_S128x128 b) p q).trans ?_
  refine Finset.sum_congr rfl fun k _ => ?_
  exact congrArg (l (ix2 p k) * ·) (transpose_ix2_apply w transposes_S128x128_p1_0_S128x128 k q)

/-- The bias, cast to a [1, 128] row and broadcast over the 4000 rows, is its entry q at (p, q). -/
theorem bias_apply (v14 : Vec Ideal S128 .f32) (p : Fin 4000) (q : Fin 128) :
    broadcastTo S4000x128 (shapeCast S1x128 v14 shapeCasts_S128_S1x128) broadcasts_S1x128_S4000x128 (ix2 p q) = v14 (ix1 q) :=
  (broadcastTo_1b_ab_apply _ broadcasts_S1x128_S4000x128 p q).trans
    (shapeCast_a_1a_apply v14 shapeCasts_S128_S1x128 (0 : Fin 1) q)

/-- THE STORED ENTRY (p, q) of the body's one store. -/
theorem payload_apply (v0 v2 : Vec Ideal S4000x128 .f32) (v5 v7 : Vec Ideal S128x128 .f32) (v14 : Vec Ideal S128 .f32)
    (p : Fin 4000) (q : Fin 128) :
    k0_pay1 (F := Ideal) v0 v2 v5 v7 v14 (ix2 p q)
      = (∑ k : Fin 128, v0 (ix2 p k) * v5 (ix2 q k) + ∑ k : Fin 128, v2 (ix2 p k) * v7 (ix2 q k)) + v14 (ix1 q) := by
  unfold k0_pay1
  dsimp only
  rw [shapeCast_self]
  show (matmul (F := Ideal) dot_S4000x128_S128x128_S4000x128_1_0_0_1_n_n none (truncf .bf16 v0 bitsLt_bf16_f32)
        (transpose S128x128 [1, 0] (truncf .bf16 v5 bitsLt_bf16_f32) transposes_S128x128_p1_0_S128x128) (constant S4000x128 .f32 0x00000000#32) (ix2 p q)
      + matmul (F := Ideal) dot_S4000x128_S128x128_S4000x128_1_0_0_1_n_n none (truncf .bf16 v2 bitsLt_bf16_f32)
        (transpose S128x128 [1, 0] (truncf .bf16 v7 bitsLt_bf16_f32) transposes_S128x128_p1_0_S128x128) (constant S4000x128 .f32 0x00000000#32) (ix2 p q))
      + broadcastTo S4000x128 (shapeCast S1x128 v14 shapeCasts_S128_S1x128) broadcasts_S1x128_S4000x128 (ix2 p q) = _
  rw [matmul_transposed_apply, matmul_transposed_apply, bias_apply]
  rfl

end Cert.KernelIdeal.Body

end
-- ==== Proof.KernelAgg.lean ====
/-
  The aggregate the kernel's pallas_call is handed.

  Before the call the kernel's program forms the neighbour aggregate on the host exactly as the reference does: the two
  rows of the edge list, negative source indices wrapped, the source rows gathered, scatter-added at the destinations, and
  each destination's sum divided by its in-degree clipped below at 1. The operations are the same ones in the same order,
  so the array the call's second operand holds on entry is the reference's own aggregate stage of the same arguments. The
  aggregate is compared operation by operation and never evaluated.
-/
import proofs.«105086_j1554778161245_1_alg».proof.Proof.Gen.KernelIdeal.Frame
import proofs.«105086_j1554778161245_1_alg».proof.Proof.Gen.ReferenceIdeal.Read
import Idealize.ShloMosaic.Lib.StableHlo.Run

noncomputable section

namespace Cert.KernelIdeal.Prelude

open Cert.KernelIdeal Cert.KernelIdeal.Gen Idealize.ShloMosaic Idealize.ShloMosaic.TcCoe Idealize.SL.Sem
open Idealize.ShloMosaic.StableHlo

/-- The kernel program's host operations before the call, composed: the mean over incoming edges of the source nodes'
    features, as a function of the features `x0` and the edge list `x1`. -/
def aggregate {F : FTy → Type} [FloatOps F] (x0 : (⟨S40000x128, .f32⟩ : BufTy).Contents (Elt F)) (x1 : (⟨S2x640000, .i32⟩ : BufTy).Contents (Elt F)) :
    (⟨S40000x128, .f32⟩ : BufTy).Contents (Elt F) :=
  Host.divf (Host.scatterAdd scatter_S40000x128_S640000x1_S640000x128_1_0_0_1 (broadcastInDim S40000x128 ![] bcast_S_S40000x128 (constant S_ .f32 0x00000000#32)) (broadcastInDim S640000x1 ![0] bcast_S640000_S640000x1_0 (shapeCast _ (extractStridedSlice S1x640000 ![1, 0] (x1) slices_S2x640000_S1x640000_1_0) shapeCasts_S1x640000_S640000)) (Host.gather gather_S40000x128_S640000x1_S640000x128_1_0_n_n_0_1_1128 (x0) (broadcastInDim S640000x1 ![0] bcast_S640000_S640000x1_0 (select (cmpi .slt (shapeCast _ (extractStridedSlice S1x640000 ![0, 0] (x1) slices_S2x640000_S1x640000_0_0) shapeCasts_S1x640000_S640000) (broadcastInDim S640000 ![] bcast_S_S640000 (constantI S_ 32 0#32))) (addi (shapeCast _ (extractStridedSlice S1x640000 ![0, 0] (x1) slices_S2x640000_S1x640000_0_0) shapeCasts_S1x640000_S640000) (broadcastInDim S640000 ![] bcast_S_S640000 (constantI S_ 32 40000#32))) (shapeCast _ (extractStridedSlice S1x640000 ![0, 0] (x1) slices_S2x640000_S1x640000_0_0) shapeCasts_S1x640000_S640000))))) (broadcastInDim S40000x128 ![0, 1] bcast_S40000x1_S40000x128_0_1 (broadcastInDim S40000x1 ![0] bcast_S40000_S40000x1_0 (maximumf (broadcastInDim S40000 ![] bcast_S_S40000 (id (constant S_ .f32 0x3F800000#32))) (Host.scatterAdd scatter_S40000_S640000x1_S640000_n_0_0_1 (broadcastInDim S40000 ![] bcast_S_S40000 (constant S_ .f32 0x00000000#32)) (broadcastInDim S640000x1 ![0] bcast_S640000_S640000x1_0 (shapeCast _ (extractStridedSlice S1x640000 ![1, 0] (x1) slices_S2x640000_S1x640000_1_0) shapeCasts_S1x640000_S640000)) (broadcastInDim S640000 ![] bcast_S_S640000 (constant S_ .f32 0x3F800000#32))))))

set_option maxHeartbeats 1000000 in
/-- On entry to the call, the aggregate buffer holds that composed term of the launch's features and edge list. -/
theorem found (m : (ℓ : Loc nD τ sig) → Buf (Elt Ideal) ℓ) (c : Dev nD) :
    (V m c main_v21 : S40000x128.Idx → EReal)
      = aggregate (F := Ideal) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp
  unfold aggregate
  -- the sums over the edges: the same operations on the same operands
  refine congrArg₂ _ rfl ?_
  -- the clipped in-degree: the called function's values are carried at their buffers' types, which are the values' own
  refine congrArg _ (congrArg _ ?_)
  refine (cast_eq _ _).trans ?_
  refine congrArg₂ _ ?_ ?_
  · rfl
  · refine (cast_eq _ _).trans ?_
    rfl

set_option maxHeartbeats 400000 in
/-- The kernel program's aggregate is the reference's aggregate stage: the same operations on the same operands, the two
    programs' dimension records equal field by field. -/
theorem same (x0 : (⟨S40000x128, .f32⟩ : BufTy).Contents (Elt Ideal)) (x1 : (⟨S2x640000, .i32⟩ : BufTy).Contents (Elt Ideal)) :
    aggregate (F := Ideal) x0 x1 = Cert.ReferenceIdeal.Read.val_main_v21 (F := Ideal) x0 x1 := by
  simp only [aggregate, Cert.ReferenceIdeal.Read.val_main_v21, Cert.ReferenceIdeal.Read.val_main_v13, Cert.ReferenceIdeal.Read.val_main_v20, Cert.ReferenceIdeal.Read.val_main_v19, Cert.ReferenceIdeal.Read.val_main_v18, Cert.ReferenceIdeal.Read.val_main_call0_v1, Cert.ReferenceIdeal.Read.val_main_call0_v0, Cert.ReferenceIdeal.Read.val_main_cst_3, Cert.ReferenceIdeal.Read.val_main_v17, Cert.ReferenceIdeal.Read.val_main_v16, Cert.ReferenceIdeal.Read.val_main_v15, Cert.ReferenceIdeal.Read.val_main_cst_2, Cert.ReferenceIdeal.Read.val_main_v14, Cert.ReferenceIdeal.Read.val_main_cst_1, Cert.ReferenceIdeal.Read.val_main_v12, Cert.ReferenceIdeal.Read.val_main_v11, Cert.ReferenceIdeal.Read.val_main_cst, Cert.ReferenceIdeal.Read.val_main_v10, Cert.ReferenceIdeal.Read.val_main_v9, Cert.ReferenceIdeal.Read.val_main_v8, Cert.ReferenceIdeal.Read.val_main_v7, Cert.ReferenceIdeal.Read.val_main_v6, Cert.ReferenceIdeal.Read.val_main_c_0, Cert.ReferenceIdeal.Read.val_main_v5, Cert.ReferenceIdeal.Read.val_main_v4, Cert.ReferenceIdeal.Read.val_main_c, Cert.ReferenceIdeal.Read.val_main_v3, Cert.ReferenceIdeal.Read.val_main_v2, Cert.ReferenceIdeal.Read.val_main_v1, Cert.ReferenceIdeal.Read.val_main_v0]
  rfl

/-- On entry to the call, the aggregate buffer holds the reference's aggregate stage of the launch's features and edges. -/
theorem agg_eq (m : (ℓ : Loc nD τ sig) → Buf (Elt Ideal) ℓ) (c : Dev nD) :
    (V m c main_v21 : S40000x128.Idx → EReal)
      = Cert.ReferenceIdeal.Read.val_main_v21 (F := Ideal) (m ((c : Thread nD τ).loc main_arg0)) (m ((c : Thread nD τ).loc main_arg1)) :=
  (found m c).trans (same _ _)

end Cert.KernelIdeal.Prelude

end
-- ==== Proof.KernelValue.lean ====
/-
  From the kernel's blocks to its whole result array.

  The grid has 10 points; point `t` stages rows 4000·t … 4000·t + 3999 of the features and of the aggregate, the two
  whole weight matrices and the whole bias, and writes back the same rows of the result. By the stored entry
  (`Body.payload_apply`), what point `t` writes back is rows 4000·t … of `DualLinear.out` of the arrays as the call
  finds them; the ten row blocks tile the 40000 rows (row r lies in block r / 4000), so after the run the result array is
  that function everywhere. The call finds the four arguments as launched and the aggregate at the reference's own
  aggregate stage (`Prelude.agg_eq`).
-/
import proofs.«105086_j1554778161245_1_alg».proof.Proof.Gen.KernelIdeal.Value
import proofs.«105086_j1554778161245_1_alg».proof.Proof.Payload
import proofs.«105086_j1554778161245_1_alg».proof.Proof.DualLinear
import proofs.«105086_j1554778161245_1_alg».proof.Proof.KernelAgg

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The block indices at point `t`, decided over the ten points: the row-blocked windows (features, aggregate, result) sit
    at block (t, 0), the weights and the bias at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of point `t`'s block is row 4000·t + p of the array. -/
def row (t : Fin cfg0.N) (p : Fin 4000) : Fin 40000 :=
  ⟨4000 * t.val + p.val, by have h := t.isLt; have hN : cfg0.N = 10 := N_0; omega⟩

/-- A body whose input blocks are: rows `rows p` of `X` and of `A`, the whole of `Ws`, `Wn` and `B`, stores `g`, if `g` at
    (p, q) is `DualLinear.out X A Ws Wn B` at (rows p, q). -/
theorem payload_eq_block (X A : S40000x128.Idx → EReal) (Ws Wn : S128x128.Idx → EReal) (B : S128.Idx → EReal)
    (x0 x1 : Vec Ideal S4000x128 .f32) (x2 x3 : Vec Ideal S128x128 .f32) (x4 : Vec Ideal S128 .f32)
    (g : S4000x128.Idx → EReal) (rows : Fin 4000 → Fin 40000)
    (h0 : ∀ (p : Fin 4000) (k : Fin 128), x0 (ix2 p k) = X (ix2 (rows p) k))
    (h1 : ∀ (p : Fin 4000) (k : Fin 128), x1 (ix2 p k) = A (ix2 (rows p) k))
    (h2 : ∀ (q k : Fin 128), x2 (ix2 q k) = Ws (ix2 q k))
    (h3 : ∀ (q k : Fin 128), x3 (ix2 q k) = Wn (ix2 q k))
    (h4 : ∀ q : Fin 128, x4 (ix1 q) = B (ix1 q))
    (hg : ∀ (p : Fin 4000) (q : Fin 128), g (ix2 p q) = Cert.DualLinear.out X A Ws Wn B (ix2 (rows p) q)) :
    k0_pay1 (F := Ideal) x0 x1 x2 x3 x4 = g := by
  funext j
  obtain ⟨p, q, rfl⟩ : ∃ (p : Fin 4000) (q : Fin 128), j = ix2 p q := ⟨j 0, j 1, eq_ix2 j⟩
  rw [Body.payload_apply, hg, Cert.DualLinear.out_ix2]
  simp only [h0, h1, h2, h3, h4]
  rfl

/-- WHAT POINT `t` WRITES BACK is block `t` of `DualLinear.out` of the arrays as the call finds them. -/
theorem flushed_eq (c : Dev nD) (t : Fin cfg0.N) :
    (dats m 0 c).flushed 5 t = ((cfg0.win 5).blk t).view.read (Elt Ideal)
      (Cert.DualLinear.out (V m c main_arg0) (V m c main_v21) (V m c main_arg2) (V m c main_arg3) (V m c main_arg4)) := by
  show (cfg0.win 5).cut (grid0.coords t) ((dats m 0 c).after 5 t) = _
  rw [after0_5]
  unfold out0_5
  rw [View.canon_unit_zero zero2]
  simp only [View.ld_unit_zero (S := S4000x128) zero2, View.ld_unit_zero (S := S128x128) zero2, View.ld_unit_zero (S := S128) zero1]
  obtain ⟨e00, e01, e10, e11, e20, e21, e30, e31, e40, e50, e51⟩ := block_indices t
  have h0 : ∀ (p : Fin 4000) (k : Fin 128), ((cfg0.win 0).blk t).view.emb (ix2 p k) = ix2 (row t p) k := fun p k => by
    funext a; apply Fin.ext
    match a with
    | ⟨0, _⟩ => show win0_0.index t (0 : Fin 2) * 4000 + 1 * p.val = 4000 * t.val + p.val; omega
    | ⟨1, _⟩ => show win0_0.index t (1 : Fin 2) * 128 + 1 * k.val = k.val; omega
  have h1 : ∀ (p : Fin 4000) (k : Fin 128), ((cfg0.win 1).blk t).view.emb (ix2 p k) = ix2 (row t p) k := fun p k => by
    funext a; apply Fin.ext
    match a with
    | ⟨0, _⟩ => show win0_1.index t (0 : Fin 2) * 4000 + 1 * p.val = 4000 * t.val + p.val; omega
    | ⟨1, _⟩ => show win0_1.index t (1 : Fin 2) * 128 + 1 * k.val = k.val; omega
  have h2 : ∀ (q k : Fin 128), ((cfg0.win 2).blk t).view.emb (ix2 q k) = ix2 q k := fun q k => by
    funext a; apply Fin.ext
    match a with
    | ⟨0, _⟩ => show win0_2.index t (0 : Fin 2) * 128 + 1 * q.val = q.val; omega
    | ⟨1, _⟩ => show win0_2.index t (1 : Fin 2) * 128 + 1 * k.val = k.val; omega
  have h3 : ∀ (q k : Fin 128), ((cfg0.win 3).blk t).view.emb (ix2 q k) = ix2 q k := fun q k => by
    funext a; apply Fin.ext
    match a with
    | ⟨0, _⟩ => show win0_3.index t (0 : Fin 2) * 128 + 1 * q.val = q.val; omega
    | ⟨1, _⟩ => show win0_3.index t (1 : Fin 2) * 128 + 1 * k.val = k.val; omega
  have h4 : ∀ q : Fin 128, ((cfg0.win 4).blk t).view.emb (ix1 q) = ix1 q := fun q => by
    funext a; apply Fin.ext
    match a with
    | ⟨0, _⟩ => show win0_4.index t (0 : Fin 1) * 128 + 1 * q.val = q.val; omega
  have h5 : ∀ (p : Fin 4000) (q : Fin 128), ((cfg0.win 5).blk t).view.emb (ix2 p q) = ix2 (row t p) q := fun p q => by
    funext a; apply Fin.ext
    match a with
    | ⟨0, _⟩ => show win0_5.index t (0 : Fin 2) * 4000 + 1 * p.val = 4000 * t.val + p.val; omega
    | ⟨1, _⟩ => show win0_5.index t (1 : Fin 2) * 128 + 1 * q.val = q.val; omega
  refine payload_eq_block (V m c main_arg0) (V m c main_v21) (V m c main_arg2) (V m c main_arg3) (V m c main_arg4)
    _ _ _ _ _ _ (row t) (fun p k => ?_) (fun p k => ?_) (fun q k => ?_) (fun q k => ?_) (fun q => ?_) (fun p q => ?_)
  -- each input block's entry is the array's entry at the block's embedded index (reading a block applies the array there)
  · unfold iblk
    refine (View.read_apply _ _).trans ((cast_eq _ _).trans ?_)
    rw [h0 p k] <;> rfl
  · unfold iblk
    refine (View.read_apply _ _).trans ((cast_eq _ _).trans ?_)
    rw [h1 p k] <;> rfl
  · unfold iblk
    refine (View.read_apply _ _).trans ((cast_eq _ _).trans ?_)
    rw [h2 q k] <;> rfl
  · unfold iblk
    refine (View.read_apply _ _).trans ((cast_eq _ _).trans ?_)
    rw [h3 q k] <;> rfl
  · unfold iblk
    refine (View.read_apply _ _).trans ((cast_eq _ _).trans ?_)
    rw [h4 q] <;> rfl
  · show Cert.DualLinear.out (V m c main_arg0) (V m c main_v21) (V m c main_arg2) (V m c main_arg3) (V m c main_arg4) (((cfg0.win 5).blk t).view.emb (ix2 p q)) = _
    rw [h5 p q]

/-- An index of the array is in point `t`'s block iff each coordinate is in the block's range on its axis. -/
theorem mem_block (t : Fin cfg0.N) (i : S40000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v22).slice (win0_5.rect t)).set ↔ _
  rw [View.set_slice_whole, Rect.mem_set_unit]
  exact Iff.rfl

/-- Every index of the result array lies in some writing point's block: row r in block r / 4000. -/
theorem covered (i : S40000x128.Idx) : ∃ t : Fin cfg0.N, (cfg0.win 5).flush t = true ∧ i ∈ ((cfg0.win 5).blk t).view.set := by
  have hi0 : (i 0).val < 40000 := (i 0).isLt
  have hi1 : (i 1).val < 128 := (i 1).isLt
  have hN : cfg0.N = 10 := N_0
  let t : Fin cfg0.N := ⟨(i 0).val / 4000, by omega⟩
  obtain ⟨-, -, -, -, -, -, -, -, -, e50, e51⟩ := block_indices t
  have e50' : win0_5.index t (0 : Fin 2) = (i 0).val / 4000 := e50
  refine ⟨t, flush0_5 t, ?_⟩
  rw [mem_block]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 128 ≤ (i 1).val ∧ (i 1).val < win0_5.index t (1 : Fin 2) * 128 + 128; omega

/-- THE RESULT ARRAY after the run, over the arrays as the call finds them. -/
theorem final_found (c : Dev nD) : (dats m 0 c).arrAt 5 cfg0.N
    = Cert.DualLinear.out (V m c main_arg0) (V m c main_v21) (V m c main_arg2) (V m c main_arg3) (V m c main_arg4) :=
  (dats m 0 c).arrAt_eq_of_cover 5 _ (fun t _ => flushed_eq m c t) covered

/-- THE RESULT ARRAY after the run, over the launch's arguments: `x · W_selfᵀ + agg · W_neighᵀ + bias` with `agg` the
    reference's aggregate stage of the features and the edge list. -/
theorem final (c : Dev nD) : (dats m 0 c).arrAt 5 cfg0.N
    = Cert.DualLinear.out (m ((c : Thread nD τ).loc main_arg0))
        (Cert.ReferenceIdeal.Read.val_main_v21 (F := Ideal) (m ((c : Thread nD τ).loc main_arg0)) (m ((c : Thread nD τ).loc main_arg1)))
        (m ((c : Thread nD τ).loc main_arg2)) (m ((c : Thread nD τ).loc main_arg3)) (m ((c : Thread nD τ).loc main_arg4)) := by
  rw [final_found, Prelude.agg_eq, V_main_arg0, V_main_arg2, V_main_arg3, V_main_arg4]

/-- The kernel's run, read: the result array at that function of the arguments, the arguments unchanged. -/
theorem run : θ_run defs (onTc (τ := τ) (main (F := Ideal))) ⟨m, fun _ => 0, ρ⟩ fun r => ∀ c : Dev nD,
      r.2.mem ((c : Thread nD τ).loc main_v22)
        = Cert.DualLinear.out (m ((c : Thread nD τ).loc main_arg0))
            (Cert.ReferenceIdeal.Read.val_main_v21 (F := Ideal) (m ((c : Thread nD τ).loc main_arg0)) (m ((c : Thread nD τ).loc main_arg1)))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.KernelIdeal.Whole

end
-- ==== Proof.lean ====
/-
  A mean-aggregation graph layer, `out = x · W_selfᵀ + agg · W_neighᵀ + bias`, with `agg` the mean over each node's
  incoming edges of the source nodes' features.

  Both programs form `agg` on the host by the same operations in the same order (the two rows of the edge list; the
  source rows gathered; scatter-added at the destinations; divided by the in-degree clipped at 1). The kernel's program
  then hands `x`, `agg`, the two [128, 128] weights and the bias to ONE pallas_call over ten blocks of 4000 rows, whose body
  rounds to bf16, multiplies each block by the two transposed weights on the matrix unit into zero accumulators, adds the
  two products and then the bias; the reference applies two `dot_general`s against the transposed weights, adds them and
  then the broadcast bias. On the extended reals the rounding is the identity and each product entry is the plain sum
  ∑ₖ row[r, k] · W[c, k], so both results are, entry by entry,

      (∑ₖ x[r, k] · W_self[c, k]  +  ∑ₖ agg[r, k] · W_neigh[c, k])  +  bias[c]

  in this same grouping (`DualLinear.out`): no law of arithmetic is needed to join the two sides, so the finiteness of the
  inputs is never used. The aggregate is carried as one unopened term, the reference's own stage.

  `RefValue.result_eq`: the reference's result is that function. `Body.payload_apply`: the kernel body's stored entry.
  `Whole.final`: the ten row blocks written back tile the result array. The three frames are the generated frame runs
  (the reference's: its generated run with the result dropped); the idealization rewrote nothing, so `preserves` is trivial.
-/
import proofs.«105086_j1554778161245_1_alg».proof.Defs
import proofs.«105086_j1554778161245_1_alg».proof.Proof.Gen.Kernel
import proofs.«105086_j1554778161245_1_alg».proof.Proof.Gen.Kernel.Skeleton
import proofs.«105086_j1554778161245_1_alg».proof.Proof.Gen.Kernel.Launch
import proofs.«105086_j1554778161245_1_alg».proof.Proof.Gen.Kernel.Points
import proofs.«105086_j1554778161245_1_alg».proof.Proof.Gen.Kernel.Frame
import proofs.«105086_j1554778161245_1_alg».proof.Proof.Gen.KernelIdeal
import proofs.«105086_j1554778161245_1_alg».proof.Proof.Gen.KernelIdeal.Skeleton
import proofs.«105086_j1554778161245_1_alg».proof.Proof.Gen.KernelIdeal.Launch
import proofs.«105086_j1554778161245_1_alg».proof.Proof.Gen.KernelIdeal.Points
import proofs.«105086_j1554778161245_1_alg».proof.Proof.Gen.KernelIdeal.Frame
import proofs.«105086_j1554778161245_1_alg».proof.Proof.Gen.ReferenceIdeal
import proofs.«105086_j1554778161245_1_alg».proof.Proof.Gen.Pre_finite_inputs
import proofs.«105086_j1554778161245_1_alg».proof.Proof.Gen.KernelIdeal.Value
import proofs.«105086_j1554778161245_1_alg».proof.Proof.Gen.ReferenceIdeal.Run
import proofs.«105086_j1554778161245_1_alg».proof.Proof.Gen.ReferenceIdeal.Read
import proofs.«105086_j1554778161245_1_alg».proof.Proof.RefValue
import proofs.«105086_j1554778161245_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both results are `DualLinear.out` of the features, the reference's aggregate stage, the weights and the bias —
    arguments on which the two launches agree. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.RefValue.result_eq, (hagree c).1, (hagree c).2.1,
    (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
